-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S1x8192 : Shape := ⟨2, ![1, 8192]⟩
abbrev S8192x2 : Shape := ⟨2, ![8192, 2]⟩
abbrev S128x128 : Shape := ⟨2, ![128, 128]⟩
abbrev S128x1 : Shape := ⟨2, ![128, 1]⟩
abbrev S128x2 : Shape := ⟨2, ![128, 2]⟩
abbrev S128 : Shape := ⟨1, ![128]⟩

abbrev nBuf : Space → Nat
  | .hbm => 28
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S128x8192, .bf16⟩
  | .hbm, ⟨14, _⟩ => ⟨S8192x1, .i32⟩
  | .hbm, ⟨15, _⟩ => ⟨S1x8192, .i32⟩
  | .hbm, ⟨16, _⟩ => ⟨S8192x2, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x8192, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x2, .f32⟩
  | .local _ .vmem, ⟨7, _⟩ => ⟨S128x2, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  transposes_S8192x128_S128x8192_1_0 : S8192x128.Transposes [1, 0] S128x8192
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  iota_S128x8192_d0_w32 : S128x8192.Iotas .tc 32 [0]
  iota_S128x8192_d1_w32 : S128x8192.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  natLt_1_32 : 1 < 32
  shapeCasts_S128_S128x1 : S128.ShapeCasts S128x1
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  slices_S8192x2_S8192x1_0_0 : S8192x2.Slices ![0, 0] S8192x1
  shapeCasts_S8192x1_S8192 : S8192x1.ShapeCasts S8192
  slices_S8192x2_S8192x1_0_1 : S8192x2.Slices ![0, 1] S8192x1
  reducesTo_S8192_S_d0 : S8192.ReducesTo [0] S_
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S8192x2.size a
  hwx0_4 : ∀ i : grid0.Coords, EltTy.bits .f32 = 32 ∨ (Rect.block (s := S8192x2) S128x2.size (cc0_transform_4 i) (hinb0_4 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v5) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .i1⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .i1⟩
  | .hbm, ⟨68, _⟩ => ⟨S8192, .i1⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_call1_v0 : Ref sig .tc := ⟨.hbm, 71, rfl⟩
abbrev main_call1_v1 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.MsSpec.lean ====
/-
  The multi-similarity loss, row by row, on the extended reals.

  From a matrix E of 8192 rows of 128 entries, a matrix ET of 128 rows of 8192 entries (in both programs the transpose of E,
  but nothing here uses that) and 8192 integer labels, row r of the loss reads the similarities
      sim r c = Σ_k E[r,k] · ET[k,c],
  the positive mask (label r = label c and r ≠ c) and the negative mask (label r ≠ label c), and is
      log1p (Σ_c [pos r c] · exp (−2 (sim r c − ½))) / 2 + log1p (Σ_c [neg r c] · exp (50 (sim r c − ½))) / 50
  when the row has at least one positive and one negative column, and 0 otherwise; the row's validity flag is that
  condition as 0 or 1. A mask enters a sum as the factor 0 or 1; on the extended reals 0 · x = 0 and 1 · x = x for EVERY x,
  the infinities included, so "multiply by the mask" and "select the term or zero" are one function, with no
  finiteness hypothesis. The float literals stay the binary words the programs print (the same words on both sides),
  except the zero word, which is the extended real 0.
-/
import Idealize.ShloMosaic.Lib.ValueIdx
import Idealize.ShloMosaic.Lib.KernelVsHost
import Idealize.ShloMosaic.PureOps.Ideal.Laws

noncomputable section

namespace Cert.MsLoss

open Idealize.ShloMosaic Idealize.ShloMosaic.ValueIdx

/-- The normalised embeddings, their transpose, the labels. -/
abbrev Emb := (⟨2, ![8192, 128]⟩ : Shape).Idx → EReal
abbrev EmbT := (⟨2, ![128, 8192]⟩ : Shape).Idx → EReal
abbrev Lab := (⟨1, ![8192]⟩ : Shape).Idx → BitVec 32

/-- A bit as the extended real 0 or 1. -/
def bitf (b : BitVec 1) : EReal := FloatOps.uitofp (F := Ideal) .f32 b

theorem bitf_zero : bitf 0#1 = 0 := by
  show (((0#1 : BitVec 1).toNat : ℝ) : EReal) = 0
  simp

theorem bitf_one : bitf 1#1 = 1 := by
  show (((1#1 : BitVec 1).toNat : ℝ) : EReal) = 1
  simp

/-- Selecting a term or zero by a bit is multiplying the term by the bit: 1 · x = x and 0 · x = 0 on every extended real. -/
theorem select_zero_eq_mul (b : BitVec 1) (x : EReal) : Scalar.select b x (0 : EReal) = bitf b * x := by
  rcases BitVec.eq_zero_or_eq_one b with h | h <;> subst h
  · rw [select_zero, bitf_zero, zero_mul]
  · rw [select_one, bitf_one, one_mul]

/-- A bit widened to a word and converted signed is the bit as 0 or 1. -/
theorem sitofp_setWidth_eq_bitf (b : BitVec 1) : FloatOps.sitofp (F := Ideal) .f32 (b.setWidth 32) = bitf b := by
  show ((((b.setWidth 32).toInt : ℤ) : ℝ) : EReal) = (((b.toNat : ℝ)) : EReal)
  rw [toInt_setWidth_bit]
  norm_cast

/-- The similarity of rows r and c. -/
def sim (E : Emb) (ET : EmbT) (r c : Fin 8192) : EReal := ∑ k : Fin 128, E (ix2 r k) * ET (ix2 k c)

/-- Rows r and c carry the same label. -/
def same (lab : Lab) (r c : Fin 8192) : BitVec 1 := IntOp.cmpi .eq (lab (ix1 r)) (lab (ix1 c))
/-- Column c is row r's own. -/
def diag (r c : Fin 8192) : BitVec 1 := IntOp.cmpi .eq (BitVec.ofNat 32 r.val) (BitVec.ofNat 32 c.val)
/-- Same label, another row. -/
def posMask (lab : Lab) (r c : Fin 8192) : BitVec 1 := IntOp.andi (same lab r c) (~~~ diag r c)
/-- Another label. -/
def negMask (lab : Lab) (r c : Fin 8192) : BitVec 1 := ~~~ same lab r c

/-- exp (−2 (sim − ½)) and exp (50 (sim − ½)). -/
def posExp (E : Emb) (ET : EmbT) (r c : Fin 8192) : EReal :=
  Ideal.exp (Ideal.ofBits .f32 0xC0000000#32 * (sim E ET r c - Ideal.ofBits .f32 0x3F000000#32))
def negExp (E : Emb) (ET : EmbT) (r c : Fin 8192) : EReal :=
  Ideal.exp (Ideal.ofBits .f32 0x42480000#32 * (sim E ET r c - Ideal.ofBits .f32 0x3F000000#32))

/-- The masked sums of row r, and the numbers of its positive and negative columns. -/
def posSum (E : Emb) (ET : EmbT) (lab : Lab) (r : Fin 8192) : EReal := ∑ c : Fin 8192, bitf (posMask lab r c) * posExp E ET r c
def negSum (E : Emb) (ET : EmbT) (lab : Lab) (r : Fin 8192) : EReal := ∑ c : Fin 8192, bitf (negMask lab r c) * negExp E ET r c
def posCnt (lab : Lab) (r : Fin 8192) : EReal := ∑ c : Fin 8192, bitf (posMask lab r c)
def negCnt (lab : Lab) (r : Fin 8192) : EReal := ∑ c : Fin 8192, bitf (negMask lab r c)

/-- Row r has a positive and a negative column. -/
def valid (lab : Lab) (r : Fin 8192) : BitVec 1 := IntOp.andi (Ideal.cmp .ogt (posCnt lab r) 0) (Ideal.cmp .ogt (negCnt lab r) 0)

/-- log1p (posSum) / 2 + log1p (negSum) / 50. -/
def loss (E : Emb) (ET : EmbT) (lab : Lab) (r : Fin 8192) : EReal :=
  Ideal.div (Ideal.log1p (posSum E ET lab r)) (Ideal.ofBits .f32 0x40000000#32)
    + Ideal.div (Ideal.log1p (negSum E ET lab r)) (Ideal.ofBits .f32 0x42480000#32)

/-- Row r's loss, zero on a row that is not valid; and its validity as 0 or 1. -/
def perRow (E : Emb) (ET : EmbT) (lab : Lab) (r : Fin 8192) : EReal := Scalar.select (valid lab r) (loss E ET lab r) 0
def validF (lab : Lab) (r : Fin 8192) : EReal := bitf (valid lab r)

end Cert.MsLoss

end
-- ==== Proof.MsRef.lean ====
/-
  The reference, row by row, is the specification: read at row r, the reference's masked sums, counts, validity and
  loss are the functions of MsSpec.lean of the normalised embeddings E (the reference's quotient of the argument by its
  clamped row norms), their transpose ET and the labels. The reference forms E·ET as one 8192 × 8192 product and
  multiplies each exponential by its mask converted to 0 or 1; both are what the specification writes.
-/
import proofs.«154084_j31671088840965_1_alg».proof.Proof.ReferenceReadP
import proofs.«154084_j31671088840965_1_alg».proof.Proof.MsSpec

noncomputable section

namespace Cert.MsLoss.Ref

open Cert.ReferenceIdeal Cert.ReferenceIdeal.Gen Cert.ReferenceIdeal.ReadP
open Idealize.ShloMosaic Idealize.ShloMosaic.TcCoe Idealize.ShloMosaic.ValueIdx

/-! ## The composed index maps at coordinates -/

theorem idx28 (r k : Fin 8192) : idx_main_v28 (ix1 r) k = ix2 r k :=
  funext fun a => Fin.ext (by match a with | ⟨0, _⟩ => rfl | ⟨1, _⟩ => rfl)
theorem idx35 (r k : Fin 8192) : idx_main_v35 (ix1 r) k = ix2 r k :=
  funext fun a => Fin.ext (by match a with | ⟨0, _⟩ => rfl | ⟨1, _⟩ => rfl)
theorem idx42 (r k : Fin 8192) : idx_main_v42 (ix1 r) k = ix2 r k :=
  funext fun a => Fin.ext (by match a with | ⟨0, _⟩ => rfl | ⟨1, _⟩ => rfl)
theorem idx45 (r k : Fin 8192) : idx_main_v45 (ix1 r) k = ix2 r k :=
  funext fun a => Fin.ext (by match a with | ⟨0, _⟩ => rfl | ⟨1, _⟩ => rfl)
theorem lidx6 (r c : Fin 8192) (k : Fin 128) : lidx_main_v6 (ix2 r c) k = ix2 r k :=
  funext fun a => Fin.ext (by match a with | ⟨0, _⟩ => rfl | ⟨1, _⟩ => rfl)
theorem ridx6 (r c : Fin 8192) (k : Fin 128) : ridx_main_v6 (ix2 r c) k = ix2 k c :=
  funext fun a => Fin.ext (by match a with | ⟨0, _⟩ => rfl | ⟨1, _⟩ => rfl)
theorem idx79 (r c : Fin 8192) : idx_main_v7 (idx_main_v9 (ix2 r c)) = ix1 r :=
  funext fun a => Fin.ext (by match a with | ⟨0, _⟩ => rfl)
theorem idx810 (r c : Fin 8192) : idx_main_v8 (idx_main_v10 (ix2 r c)) = ix1 c :=
  funext fun a => Fin.ext (by match a with | ⟨0, _⟩ => rfl)

/-! ## The stages at coordinates -/

variable (x0 : (⟨S8192x128, .f32⟩ : BufTy).Contents (Elt Ideal)) (x1 : (⟨S8192, .i32⟩ : BufTy).Contents (Elt Ideal))

/-- The product E·ET at (r, c). -/
theorem v6_at (r c : Fin 8192) :
    val_main_v6 (F := Ideal) x0 (ix2 r c) = sim (val_main_v4 (F := Ideal) x0) (val_main_v5 (F := Ideal) x0) r c := by
  rw [val_main_v6_apply]
  simp only [lidx6, ridx6]
  rfl

/-- label r = label c. -/
theorem v11_at (r c : Fin 8192) : val_main_v11 (F := Ideal) x1 (ix2 r c) = same x1 r c := by
  rw [val_main_v11_apply, val_main_v9_apply, val_main_v10_apply, val_main_v7_apply, val_main_v8_apply, idx79, idx810]
  rfl

/-- r = c, as the reference's two iotas spell it. -/
theorem v16_at (r c : Fin 8192) : val_main_v16 (F := Ideal) (ix2 r c) = diag r c := by
  rw [val_main_v16_apply, val_main_v15_apply, val_main_v12_apply, val_main_v13_apply, val_main_v14_apply, val_main_c_apply]
  show IntOp.cmpi .eq (BitVec.ofNat 32 r.val + 0#32) (BitVec.ofNat 32 c.val) = _
  rw [BitVec.add_zero]
  rfl

theorem v19_at (r c : Fin 8192) : val_main_v19 (F := Ideal) x1 (ix2 r c) = bitf (posMask x1 r c) := by
  rw [val_main_v19_apply, val_main_v18_apply, val_main_v17_apply, v11_at, v16_at]
  rfl

theorem v21_at (r c : Fin 8192) : val_main_v21 (F := Ideal) x1 (ix2 r c) = bitf (negMask x1 r c) := by
  rw [val_main_v21_apply, val_main_v20_apply, v11_at]
  rfl

theorem v26_at (r c : Fin 8192) :
    val_main_v26 (F := Ideal) x0 (ix2 r c) = posExp (val_main_v4 (F := Ideal) x0) (val_main_v5 (F := Ideal) x0) r c := by
  rw [val_main_v26_apply, val_main_v25_apply, val_main_v24_apply, val_main_cst_1_apply, val_main_v23_apply, v6_at,
    val_main_v22_apply, val_main_cst_0_apply]
  rfl

theorem v33_at (r c : Fin 8192) :
    val_main_v33 (F := Ideal) x0 (ix2 r c) = negExp (val_main_v4 (F := Ideal) x0) (val_main_v5 (F := Ideal) x0) r c := by
  rw [val_main_v33_apply, val_main_v32_apply, val_main_v31_apply, val_main_cst_4_apply, val_main_v30_apply, v6_at,
    val_main_v29_apply, val_main_cst_3_apply]
  rfl

/-- The row sums: the initial zero word is the extended real 0. -/
theorem v28_at (r : Fin 8192) :
    val_main_v28 (F := Ideal) x0 x1 (ix1 r) = posSum (val_main_v4 (F := Ideal) x0) (val_main_v5 (F := Ideal) x0) x1 r := by
  rw [val_main_v28_apply, val_main_cst_2_apply]
  simp only [idx28, val_main_v27_apply, v19_at, v26_at]
  show Ideal.ofBits .f32 0x00000000#32 + _ = _
  rw [Ideal.ofBits_zero_f32, zero_add]
  rfl

theorem v35_at (r : Fin 8192) :
    val_main_v35 (F := Ideal) x0 x1 (ix1 r) = negSum (val_main_v4 (F := Ideal) x0) (val_main_v5 (F := Ideal) x0) x1 r := by
  rw [val_main_v35_apply, val_main_cst_5_apply]
  simp only [idx35, val_main_v34_apply, v21_at, v33_at]
  show Ideal.ofBits .f32 0x00000000#32 + _ = _
  rw [Ideal.ofBits_zero_f32, zero_add]
  rfl

theorem v42_at (r : Fin 8192) : val_main_v42 (F := Ideal) x1 (ix1 r) = posCnt x1 r := by
  rw [val_main_v42_apply, val_main_cst_8_apply]
  simp only [idx42, v19_at]
  show Ideal.ofBits .f32 0x00000000#32 + _ = _
  rw [Ideal.ofBits_zero_f32, zero_add]
  rfl

theorem v45_at (r : Fin 8192) : val_main_v45 (F := Ideal) x1 (ix1 r) = negCnt x1 r := by
  rw [val_main_v45_apply, val_main_cst_10_apply]
  simp only [idx45, v21_at]
  show Ideal.ofBits .f32 0x00000000#32 + _ = _
  rw [Ideal.ofBits_zero_f32, zero_add]
  rfl

/-- The row's validity bit. -/
theorem v48_at (r : Fin 8192) : val_main_v48 (F := Ideal) x1 (ix1 r) = valid x1 r := by
  rw [val_main_v48_apply, val_main_v44_apply, val_main_v47_apply, v42_at, v45_at, val_main_v43_apply, val_main_v46_apply,
    val_main_cst_9_apply, val_main_cst_11_apply]
  show IntOp.andi (Ideal.cmp .ogt _ (Ideal.ofBits .f32 0x00000000#32)) (Ideal.cmp .ogt _ (Ideal.ofBits .f32 0x00000000#32)) = _
  rw [Ideal.ofBits_zero_f32]
  rfl

theorem v49_at (r : Fin 8192) :
    val_main_v49 (F := Ideal) x0 x1 (ix1 r) = loss (val_main_v4 (F := Ideal) x0) (val_main_v5 (F := Ideal) x0) x1 r := by
  rw [val_main_v49_apply, val_main_v38_apply, val_main_v41_apply, val_main_v36_apply, val_main_v39_apply, v28_at, v35_at,
    val_main_v37_apply, val_main_v40_apply, val_main_cst_6_apply, val_main_cst_7_apply]
  rfl

/-- THE REFERENCE'S ROW LOSS is the specification's. -/
theorem v50_at (r : Fin 8192) :
    val_main_v50 (F := Ideal) x0 x1 (ix1 r) = perRow (val_main_v4 (F := Ideal) x0) (val_main_v5 (F := Ideal) x0) x1 r := by
  rw [val_main_v50_apply, v48_at, v49_at, val_main_call1_v1_apply, val_main_call1_v0_apply, val_main_cst_12_apply]
  show Scalar.select _ _ (Ideal.ofBits .f32 0x00000000#32) = _
  rw [Ideal.ofBits_zero_f32]
  rfl

/-- THE REFERENCE'S ROW VALIDITY, as 0 or 1, is the specification's. -/
theorem v51_at (r : Fin 8192) : val_main_v51 (F := Ideal) x1 (ix1 r) = validF x1 r := by
  rw [val_main_v51_apply, v48_at]
  rfl

end Cert.MsLoss.Ref

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.MsHost.lean ====
/-
  What the region finds: the host lines of the kernel's program before the call.

  They divide each row of the embeddings by its norm clamped below at 1e-12 — line for line the reference's own first
  lines, so the array is the reference's stage of the same argument; the change of float format on the way into the call is
  the identity on the extended reals —, transpose the result, and reshape the labels into a column and into a row. So the
  call's four operands are the reference's normalised embeddings and their transpose, and the label argument twice.
-/
import proofs.«154084_j31671088840965_1_alg».proof.Proof.KernelIdealFrameP
import proofs.«154084_j31671088840965_1_alg».proof.Proof.ReferenceReadP
import proofs.«154084_j31671088840965_1_alg».proof.Proof.LibKeepdims
import Idealize.ShloMosaic.Lib.ValueLayout
import Idealize.ShloMosaic.Lib.StableHlo.Run

noncomputable section

namespace Cert.MsLoss.Host

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first operand: the reference's normalised embeddings of the same argument. -/
theorem V_v5 (c : Dev nD) :
    (V m c main_v5 : S8192x128.Idx → EReal)
      = Cert.ReferenceIdeal.ReadP.val_main_v4 (F := Ideal) (m ((c : Thread nD τ).loc main_arg0)) := by
  dsimp only [V, V0]
  simp only [hostOps0, hostOps0_1, List.flatten_cons, List.flatten_nil, List.append_nil, List.cons_append, List.nil_append]
  after_results
  rfl

/-- The second: their transpose, as the reference forms it. -/
theorem V_v6 (c : Dev nD) :
    (V m c main_v6 : S128x8192.Idx → EReal)
      = Cert.ReferenceIdeal.ReadP.val_main_v5 (F := Ideal) (m ((c : Thread nD τ).loc main_arg0)) := by
  dsimp only [V, V0]
  simp only [hostOps0, hostOps0_1, List.flatten_cons, List.flatten_nil, List.append_nil, List.cons_append, List.nil_append]
  after_results
  rfl

/-- The label column at (r, 0) is label r. -/
theorem V_v7 (c : Dev nD) (r : Fin 8192) :
    V m c main_v7 (ix2 r (0 : Fin 1)) = m ((c : Thread nD τ).loc main_arg1) (ix1 r) := by
  have e : (V m c main_v7 : S8192x1.Idx → BitVec 32) = shapeCast S8192x1 (m ((c : Thread nD τ).loc main_arg1)) shapeCasts_S8192_S8192x1 := by
    dsimp only [V, V0]
    simp only [hostOps0, hostOps0_1, List.flatten_cons, List.flatten_nil, List.append_nil, List.cons_append, List.nil_append]
    after_results
    rfl
  rw [e]
  exact LibKeepdims.shapeCast_col_apply _ _ r (0 : Fin 1)

/-- The label row at (0, q) is label q. -/
theorem V_v8 (c : Dev nD) (q : Fin 8192) :
    V m c main_v8 (ix2 (0 : Fin 1) q) = m ((c : Thread nD τ).loc main_arg1) (ix1 q) := by
  have e : (V m c main_v8 : S1x8192.Idx → BitVec 32) = shapeCast S1x8192 (m ((c : Thread nD τ).loc main_arg1)) shapeCasts_S8192_S1x8192 := by
    dsimp only [V, V0]
    simp only [hostOps0, hostOps0_1, List.flatten_cons, List.flatten_nil, List.append_nil, List.cons_append, List.nil_append]
    after_results
    rfl
  rw [e]
  exact shapeCast_a_1a_apply _ _ (0 : Fin 1) q

end Cert.MsLoss.Host

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«154084_j31671088840965_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.MsBody.lean ====
/-
  The kernel body at one grid point, entry by entry.

  At grid point t the body holds a block x0 of 128 rows of the normalised embeddings, the whole transposed matrix x1, the
  block x2 of the 128 rows' labels as a column, and all the labels x3 as one row. It forms the 128 × 8192 slab of
  similarities x0·x1, the positive mask (same label, and the slab's row number 128·t + p different from the column
  number) and the negative mask (another label), sums each masked exponential and each mask along the slab's rows, and
  stores, for local row p, the row's loss in column 0 and its validity flag in column 1. Read at local row p this is row
  128·t + p of the specification (MsSpec.lean): the slab's row number is formed in 32-bit words, where
  p + t·128 = 128·t + p, and the body SELECTS the exponential or zero where the specification multiplies by the mask.
-/
import proofs.«154084_j31671088840965_1_alg».proof.Proof.Gen.KernelIdeal.Skeleton
import proofs.«154084_j31671088840965_1_alg».proof.Proof.MsSpec
import proofs.«154084_j31671088840965_1_alg».proof.Proof.LibMatmulIdx
import proofs.«154084_j31671088840965_1_alg».proof.Proof.LibKeepdims
import proofs.«154084_j31671088840965_1_alg».proof.Proof.LibColumnOps
import Idealize.ShloMosaic.Lib.ValueLayout
import Idealize.ShloMosaic.Lib.Pipeline.Value
import Idealize.ShloMosaic.Lib.KernelVsHost

noncomputable section

namespace Cert.MsLoss.Body

open Cert.KernelIdeal Cert.KernelIdeal.Gen
open Idealize.ShloMosaic Idealize.ShloMosaic.ValueIdx

/-! ## The product's index maps -/

theorem dl0 (j : S128x8192.Idx) (q : dot_S128x128_S128x8192_S128x8192_1_0_0_1_n_n.contr.Idx) :
    (dot_S128x128_S128x8192_S128x8192_1_0_0_1_n_n.lhsIdx j q 0).val = (j 0).val := by
  unfold DotDims.lhsIdx
  rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
  rfl
theorem dl1 (j : S128x8192.Idx) (q : dot_S128x128_S128x8192_S128x8192_1_0_0_1_n_n.contr.Idx) :
    (dot_S128x128_S128x8192_S128x8192_1_0_0_1_n_n.lhsIdx j q 1).val = (q ⟨0, by decide⟩).val :=
  dot_S128x128_S128x8192_S128x8192_1_0_0_1_n_n.lhsIdx_val_of_single rfl j q
theorem dr0 (j : S128x8192.Idx) (q : dot_S128x128_S128x8192_S128x8192_1_0_0_1_n_n.contr.Idx) :
    (dot_S128x128_S128x8192_S128x8192_1_0_0_1_n_n.rhsIdx j q 0).val = (q ⟨0, by decide⟩).val :=
  dot_S128x128_S128x8192_S128x8192_1_0_0_1_n_n.rhsIdx_val_of_single rfl j q
theorem dr1 (j : S128x8192.Idx) (q : dot_S128x128_S128x8192_S128x8192_1_0_0_1_n_n.contr.Idx) :
    (dot_S128x128_S128x8192_S128x8192_1_0_0_1_n_n.rhsIdx j q 1).val = (j 1).val := by
  unfold DotDims.rhsIdx
  rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
  rfl

variable (i : grid0.Coords) (x0 : FVec Ideal S128x128 .bf16) (x1 : FVec Ideal S128x8192 .bf16)
  (x2 : Vec Ideal S128x1 .i32) (x3 : Vec Ideal S1x8192 .i32)

/-! ## The payloads at an index -/

/-- The slab of similarities at (p, c): Σ_k x0[p,k] · x1[k,c]. -/
theorem pay2_at (p : Fin 128) (c : Fin 8192) :
    (k0_pay2 (F := Ideal) x0 x1 (ix2 p c) : EReal) = ∑ k : Fin 128, (x0 (ix2 p k) : EReal) * (x1 (ix2 k c) : EReal) := by
  unfold k0_pay2
  show matmul dot_S128x128_S128x8192_S128x8192_1_0_0_1_n_n none (shapeCast S128x128 x0 _) (shapeCast S128x8192 x1 _) (constant S128x8192 .f32 0x00000000#32) (ix2 p c) = _
  rw [shapeCast_self, shapeCast_self]
  exact LibMatmulIdx.matmul2_apply dot_S128x128_S128x8192_S128x8192_1_0_0_1_n_n rfl rfl dl0 dl1 dr0 dr1 none x0 x1 (ix2 p c)

/-- Label of local row p against label of column c. -/
theorem pay3_at (p : Fin 128) (c : Fin 8192) :
    k0_pay3 (F := Ideal) x2 x3 (ix2 p c) = IntOp.cmpi .eq (x2 (ix2 p (0 : Fin 1))) (x3 (ix2 (0 : Fin 1) c)) := by
  unfold k0_pay3
  show IntOp.cmpi .eq (broadcastTo S128x8192 (shapeCast S128x1 x2 _) _ (ix2 p c)) (broadcastTo S128x8192 (shapeCast S1x8192 x3 _) _ (ix2 p c)) = _
  rw [LibColumnOps.broadcastTo_col_apply, broadcastTo_1b_ab_apply, shapeCast_self, shapeCast_self]

/-- The positive mask at (p, c): the labels agree and the slab's row number, p + (grid coordinate)·128 in 32-bit words, is not c. -/
theorem pay4_at (p : Fin 128) (c : Fin 8192) :
    k0_pay4 (F := Ideal) i x2 x3 (ix2 p c)
      = IntOp.andi (k0_pay3 (F := Ideal) x2 x3 (ix2 p c))
          (~~~ IntOp.cmpi .eq (BitVec.ofNat 32 p.val + BitVec.ofNat 32 (i 0).val * 128#32) (BitVec.ofNat 32 c.val)) := by
  unfold k0_pay4
  show IntOp.andi (k0_pay3 (F := Ideal) x2 x3 (ix2 p c))
    (IntOp.xori (IntOp.cmpi .eq (IntOp.addi (iota .tc S128x8192 32 [0] _ (ix2 p c)) (Scalar.muli (BitVec.ofNat 32 (i 0).val) 128#32))
      (iota .tc S128x8192 32 [1] _ (ix2 p c))) 1#1) = _
  rw [iota_single_apply, iota_single_apply, xori_one_eq_not]
  rfl

/-- The negative mask at (p, c). -/
theorem pay5_at (p : Fin 128) (c : Fin 8192) :
    k0_pay5 (F := Ideal) x2 x3 (ix2 p c) = ~~~ k0_pay3 (F := Ideal) x2 x3 (ix2 p c) := by
  unfold k0_pay5
  show IntOp.xori (k0_pay3 (F := Ideal) x2 x3 (ix2 p c)) 1#1 = _
  rw [xori_one_eq_not]

/-! ## Sums along the slab's rows -/

/-- The exact sum of each of the slab's 128 rows, from the zero word. -/
def rowSum (src : FVec Ideal S128x8192 .f32) : FVec Ideal S128 .f32 :=
  multiReduction .add [1] S128 src 0x00000000#32 reduces_S128x8192_S128 (.inl rfl) rfl

theorem rowSum_at (src : FVec Ideal S128x8192 .f32) (p : Fin 128) :
    (rowSum src (ix1 p) : EReal) = ∑ c : Fin 8192, (src (ix2 p c) : EReal) :=
  LibKeepdims.sum_axis1_apply (A := 128) (B := 8192) src _ reduces_S128x8192_S128 (.inl rfl) rfl p

/-- The positive masked sum of local row p: each column's exponential where the mask holds, the zero word elsewhere. -/
theorem pay6_at (p : Fin 128) :
    (k0_pay6 (F := Ideal) i x0 x1 x2 x3 (ix1 p) : EReal)
      = ∑ c : Fin 8192, Scalar.select (k0_pay4 (F := Ideal) i x2 x3 (ix2 p c))
          (Ideal.exp (Ideal.ofBits .f32 0xC0000000#32 * ((k0_pay2 (F := Ideal) x0 x1 (ix2 p c) : EReal) - Ideal.ofBits .f32 0x3F000000#32)))
          (Ideal.ofBits .f32 0x00000000#32) := by
  unfold k0_pay6
  refine (rowSum_at _ p).trans ?_
  rfl

/-- The negative masked sum of local row p. -/
theorem pay7_at (p : Fin 128) :
    (k0_pay7 (F := Ideal) x0 x1 x2 x3 (ix1 p) : EReal)
      = ∑ c : Fin 8192, Scalar.select (k0_pay5 (F := Ideal) x2 x3 (ix2 p c))
          (Ideal.exp (Ideal.ofBits .f32 0x42480000#32 * ((k0_pay2 (F := Ideal) x0 x1 (ix2 p c) : EReal) - Ideal.ofBits .f32 0x3F000000#32)))
          (Ideal.ofBits .f32 0x00000000#32) := by
  unfold k0_pay7
  refine (rowSum_at _ p).trans ?_
  rfl

/-- The positive mask as 0 or 1. -/
theorem pay8_at (p : Fin 128) (c : Fin 8192) :
    (k0_pay8 (F := Ideal) i x2 x3 (ix2 p c) : EReal) = bitf (k0_pay4 (F := Ideal) i x2 x3 (ix2 p c)) := by
  unfold k0_pay8
  exact sitofp_setWidth_eq_bitf _

/-! ## The stored pair -/

/-- What local row p's loss entry is made of: the two counts' signs, the two logarithms' quotients. -/
def lossOf (v20 : IVec S128x8192 1) (v35 v36 : FVec Ideal S128 .f32) (v38 : FVec Ideal S128x8192 .f32) (p : Fin 128) : EReal :=
  Scalar.select
    (IntOp.andi (Ideal.cmp .ogt (rowSum v38 (ix1 p)) (Ideal.ofBits .f32 0x00000000#32))
      (Ideal.cmp .ogt (rowSum (sitofp .f32 (extui 32 v20 natLt_1_32)) (ix1 p)) (Ideal.ofBits .f32 0x00000000#32)))
    (Ideal.div (Ideal.log1p (v35 (ix1 p))) (Ideal.ofBits .f32 0x40000000#32)
      + Ideal.div (Ideal.log1p (v36 (ix1 p))) (Ideal.ofBits .f32 0x42480000#32))
    (Ideal.ofBits .f32 0x00000000#32)

/-- And its validity entry. -/
def flagOf (v20 : IVec S128x8192 1) (v38 : FVec Ideal S128x8192 .f32) (p : Fin 128) : EReal :=
  FloatOps.sitofp (F := Ideal) .f32
    ((IntOp.andi (Ideal.cmp .ogt (rowSum v38 (ix1 p)) (Ideal.ofBits .f32 0x00000000#32))
      (Ideal.cmp .ogt (rowSum (sitofp .f32 (extui 32 v20 natLt_1_32)) (ix1 p)) (Ideal.ofBits .f32 0x00000000#32))).setWidth 32)

/-- Column 0 of the stored block: the first of the two concatenated columns. -/
theorem pay1_col0 (v20 : IVec S128x8192 1) (v35 v36 : FVec Ideal S128 .f32) (v38 : FVec Ideal S128x8192 .f32) (p : Fin 128) :
    (k0_pay1 (F := Ideal) v20 v35 v36 v38 (ix2 p (0 : Fin 2)) : EReal) = lossOf v20 v35 v36 v38 p := by
  unfold k0_pay1
  refine (concatenate_pair_apply_left (t := S128x2) (s₁ := S128x1) (s₂ := S128x1) (1 : Fin 2) _ _ concatenates_S128x1_S128x1_S128x2_d1 (ix2 p (0 : Fin 2)) rfl (ix2 p (0 : Fin 1))
    (fun b => by match b with | ⟨0, _⟩ => rfl | ⟨1, _⟩ => rfl)).trans ?_
  refine (LibKeepdims.shapeCast_col_apply _ shapeCasts_S128_S128x1 p (0 : Fin 1)).trans ?_
  rfl

/-- Column 1: the second. -/
theorem pay1_col1 (v20 : IVec S128x8192 1) (v35 v36 : FVec Ideal S128 .f32) (v38 : FVec Ideal S128x8192 .f32) (p : Fin 128) :
    (k0_pay1 (F := Ideal) v20 v35 v36 v38 (ix2 p (1 : Fin 2)) : EReal) = flagOf v20 v38 p := by
  unfold k0_pay1
  refine (concatenate_pair_apply_right (t := S128x2) (s₁ := S128x1) (s₂ := S128x1) (1 : Fin 2) _ _ concatenates_S128x1_S128x1_S128x2_d1 (ix2 p (1 : Fin 2)) rfl rfl (ix2 p (0 : Fin 1))
    (fun b hb => by
      match b with
      | ⟨0, _⟩ => rfl
      | ⟨1, _⟩ => exact absurd rfl hb) rfl).trans ?_
  refine (LibKeepdims.shapeCast_col_apply _ shapeCasts_S128_S128x1 p (0 : Fin 1)).trans ?_
  rfl

/-! ## The block is rows 128·t … 128·t + 127 of the specification -/

/-- Row 128·t + p of the whole arrays: local row p of grid point t. -/
def rowOf (t : Fin 64) (p : Fin 128) : Fin 8192 := ⟨128 * t.val + p.val, by have := t.isLt; have := p.isLt; omega⟩

theorem rowOf_val (t : Fin 64) (p : Fin 128) : (rowOf t p).val = 128 * t.val + p.val := rfl

section Link

variable (t : Fin 64) (E : Emb) (ET : EmbT) (lab : Lab)

/-- The slab entry (p, c) is the similarity of rows 128·t + p and c. -/
theorem sim_eq (h0 : ∀ (p : Fin 128) (k : Fin 128), (x0 (ix2 p k) : EReal) = E (ix2 (rowOf t p) k))
    (h1 : ∀ (k : Fin 128) (c : Fin 8192), (x1 (ix2 k c) : EReal) = ET (ix2 k c)) (p : Fin 128) (c : Fin 8192) :
    (k0_pay2 (F := Ideal) x0 x1 (ix2 p c) : EReal) = sim E ET (rowOf t p) c := by
  rw [pay2_at]
  unfold sim
  exact Finset.sum_congr rfl fun k _ => by rw [h0, h1]

theorem same_eq (h2 : ∀ p : Fin 128, x2 (ix2 p (0 : Fin 1)) = lab (ix1 (rowOf t p)))
    (h3 : ∀ c : Fin 8192, x3 (ix2 (0 : Fin 1) c) = lab (ix1 c)) (p : Fin 128) (c : Fin 8192) :
    k0_pay3 (F := Ideal) x2 x3 (ix2 p c) = same lab (rowOf t p) c := by
  rw [pay3_at, h2, h3]
  rfl

/-- In 32-bit words, p + t·128 is the number 128·t + p. -/
theorem row_word (p : Fin 128) : BitVec.ofNat 32 p.val + BitVec.ofNat 32 t.val * 128#32 = BitVec.ofNat 32 (rowOf t p).val := by
  rw [rowOf_val, BitVec.ofNat_add, BitVec.ofNat_mul, BitVec.add_comm, BitVec.mul_comm]

theorem pos_eq (hi : (i 0).val = t.val) (h2 : ∀ p : Fin 128, x2 (ix2 p (0 : Fin 1)) = lab (ix1 (rowOf t p)))
    (h3 : ∀ c : Fin 8192, x3 (ix2 (0 : Fin 1) c) = lab (ix1 c)) (p : Fin 128) (c : Fin 8192) :
    k0_pay4 (F := Ideal) i x2 x3 (ix2 p c) = posMask lab (rowOf t p) c := by
  rw [pay4_at, same_eq x2 x3 t lab h2 h3, hi, row_word]
  rfl

theorem neg_eq (h2 : ∀ p : Fin 128, x2 (ix2 p (0 : Fin 1)) = lab (ix1 (rowOf t p)))
    (h3 : ∀ c : Fin 8192, x3 (ix2 (0 : Fin 1) c) = lab (ix1 c)) (p : Fin 128) (c : Fin 8192) :
    k0_pay5 (F := Ideal) x2 x3 (ix2 p c) = negMask lab (rowOf t p) c := by
  rw [pay5_at, same_eq x2 x3 t lab h2 h3]
  rfl

variable (hi : (i 0).val = t.val)
  (h0 : ∀ (p : Fin 128) (k : Fin 128), (x0 (ix2 p k) : EReal) = E (ix2 (rowOf t p) k))
  (h1 : ∀ (k : Fin 128) (c : Fin 8192), (x1 (ix2 k c) : EReal) = ET (ix2 k c))
  (h2 : ∀ p : Fin 128, x2 (ix2 p (0 : Fin 1)) = lab (ix1 (rowOf t p)))
  (h3 : ∀ c : Fin 8192, x3 (ix2 (0 : Fin 1) c) = lab (ix1 c))

include hi h0 h1 h2 h3

/-- The body's selected sum is the specification's sum of products with the mask. -/
theorem posSum_eq (p : Fin 128) : (k0_pay6 (F := Ideal) i x0 x1 x2 x3 (ix1 p) : EReal) = posSum E ET lab (rowOf t p) := by
  rw [pay6_at]
  unfold posSum posExp
  refine Finset.sum_congr rfl fun c _ => ?_
  rw [pos_eq i x2 x3 t lab hi h2 h3, sim_eq x0 x1 t E ET h0 h1, Ideal.ofBits_zero_f32, select_zero_eq_mul]

theorem negSum_eq (p : Fin 128) : (k0_pay7 (F := Ideal) x0 x1 x2 x3 (ix1 p) : EReal) = negSum E ET lab (rowOf t p) := by
  rw [pay7_at]
  unfold negSum negExp
  refine Finset.sum_congr rfl fun c _ => ?_
  rw [neg_eq x2 x3 t lab h2 h3, sim_eq x0 x1 t E ET h0 h1, Ideal.ofBits_zero_f32, select_zero_eq_mul]

theorem posCnt_eq (p : Fin 128) : (rowSum (k0_pay8 (F := Ideal) i x2 x3) (ix1 p) : EReal) = posCnt lab (rowOf t p) := by
  rw [rowSum_at]
  unfold posCnt
  refine Finset.sum_congr rfl fun c _ => ?_
  rw [pay8_at, pos_eq i x2 x3 t lab hi h2 h3]

theorem negCnt_eq (p : Fin 128) :
    (rowSum (sitofp .f32 (extui 32 (k0_pay5 (F := Ideal) x2 x3) natLt_1_32)) (ix1 p) : EReal) = negCnt lab (rowOf t p) := by
  rw [rowSum_at]
  unfold negCnt
  refine Finset.sum_congr rfl fun c _ => ?_
  refine (sitofp_setWidth_eq_bitf _).trans ?_
  rw [neg_eq x2 x3 t lab h2 h3]

/-- The validity bit the body forms is the specification's. -/
theorem valid_eq (p : Fin 128) :
    IntOp.andi (Ideal.cmp .ogt (rowSum (k0_pay8 (F := Ideal) i x2 x3) (ix1 p)) (Ideal.ofBits .f32 0x00000000#32))
      (Ideal.cmp .ogt (rowSum (sitofp .f32 (extui 32 (k0_pay5 (F := Ideal) x2 x3) natLt_1_32)) (ix1 p)) (Ideal.ofBits .f32 0x00000000#32))
      = valid lab (rowOf t p) := by
  rw [posCnt_eq i x0 x1 x2 x3 t E ET lab hi h0 h1 h2 h3, negCnt_eq i x0 x1 x2 x3 t E ET lab hi h0 h1 h2 h3, Ideal.ofBits_zero_f32]
  rfl

/-- WHAT THE BODY STORES for local row p, column 0: the specification's loss of row 128·t + p. -/
theorem stored_col0 (p : Fin 128) :
    (k0_pay1 (F := Ideal) (k0_pay5 x2 x3) (k0_pay6 i x0 x1 x2 x3) (k0_pay7 x0 x1 x2 x3) (k0_pay8 i x2 x3) (ix2 p (0 : Fin 2)) : EReal)
      = perRow E ET lab (rowOf t p) := by
  rw [pay1_col0]
  unfold lossOf
  rw [valid_eq i x0 x1 x2 x3 t E ET lab hi h0 h1 h2 h3, posSum_eq i x0 x1 x2 x3 t E ET lab hi h0 h1 h2 h3,
    negSum_eq i x0 x1 x2 x3 t E ET lab hi h0 h1 h2 h3, Ideal.ofBits_zero_f32]
  rfl

/-- Column 1: the specification's validity flag of row 128·t + p. -/
theorem stored_col1 (p : Fin 128) :
    (k0_pay1 (F := Ideal) (k0_pay5 x2 x3) (k0_pay6 i x0 x1 x2 x3) (k0_pay7 x0 x1 x2 x3) (k0_pay8 i x2 x3) (ix2 p (1 : Fin 2)) : EReal)
      = validF lab (rowOf t p) := by
  rw [pay1_col1]
  unfold flagOf
  rw [valid_eq i x0 x1 x2 x3 t E ET lab hi h0 h1 h2 h3]
  exact sitofp_setWidth_eq_bitf _

end Link

end Cert.MsLoss.Body

end
-- ==== Proof.MsBlocks.lean ====
/-
  From blocks to the array: what the kernel's output array holds after the run.

  The grid has 64 points. Point t fetches rows 128·t … 128·t + 127 of the normalised embeddings and of the label column, the
  whole transposed matrix and the whole label row, and writes back rows 128·t … 128·t + 127 of the 8192 × 2 output. By the
  body's reading (MsBody.lean) the block written back at t is, entry by entry, the specification's loss (column 0) and
  validity flag (column 1) of those rows; the 64 blocks tile the output, row r lying in the block of point r / 128; so the
  output array ends as one function of the arrays the region finds: `outArr`.
-/
import proofs.«154084_j31671088840965_1_alg».proof.Proof.KernelIdealFrameP
import proofs.«154084_j31671088840965_1_alg».proof.Proof.MsBody
import Idealize.ShloMosaic.Lib.Pipeline.Value

set_option maxRecDepth 16384

noncomputable section

namespace Cert.MsLoss.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.MsLoss.Body

/-- The output array as one function: row r holds the loss of row r in column 0 and its validity flag in column 1. -/
def outArr (E : Emb) (ET : EmbT) (lab : Lab) : S8192x2.Idx → EReal := fun i =>
  if (i 1).val = 0 then perRow E ET lab ⟨(i 0).val, idx2_lt0 i⟩ else validF lab ⟨(i 0).val, idx2_lt0 i⟩

theorem outArr_col0 (E : Emb) (ET : EmbT) (lab : Lab) (r : Fin 8192) : outArr E ET lab (ix2 r (0 : Fin 2)) = perRow E ET lab r :=
  if_pos rfl
theorem outArr_col1 (E : Emb) (ET : EmbT) (lab : Lab) (r : Fin 8192) : outArr E ET lab (ix2 r (1 : Fin 2)) = validF lab r :=
  if_neg (show ¬ ((1 : Fin 2).val = 0) by decide)

theorem hz : (![0, 0] : Fin 2 → Nat) = fun _ => 0 := funext fun a => by fin_cases a <;> rfl

/-- A grid point's number is below 64. -/
theorem lt64 (t : Fin cfg0.N) : t.val < 64 := by
  have h := t.isLt
  have hN : cfg0.N = 64 := N_0
  omega

/-- The grid point as a number below 64. -/
def pt (t : Fin cfg0.N) : Fin 64 := ⟨t.val, lt64 t⟩

/-- The printed index maps, decided once over the grid: the row-blocked windows (embeddings, label column, output) sit at
    block row t, block column 0; the whole-array windows at block (0, 0); the grid coordinate is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

variable (m : (ℓ : Loc nD τ sig) → Buf (Elt Ideal) ℓ)

/-! ## Each input block read where the output's rectangle says -/

theorem iblk0_at (c : Dev nD) (t : Fin cfg0.N) (p k : Fin 128) :
    (iblk m c 0 t (ix2 p k) : EReal) = V m c main_v5 (ix2 (rowOf (pt t) p) k) := by
  show V m c main_v5 (((cfg0.win 0).blk t).view.emb (ix2 p k)) = _
  refine congrArg (V m c main_v5) (funext fun a => Fin.ext ?_)
  obtain ⟨e0, e1, -⟩ := idx_facts t
  match a with
  | ⟨0, _⟩ => show win0_0.index t (0 : Fin 2) * 128 + 1 * p.val = 128 * t.val + p.val; omega
  | ⟨1, _⟩ => show win0_0.index t (1 : Fin 2) * 128 + 1 * k.val = k.val; omega

theorem iblk1_at (c : Dev nD) (t : Fin cfg0.N) (k : Fin 128) (q : Fin 8192) :
    (iblk m c 1 t (ix2 k q) : EReal) = V m c main_v6 (ix2 k q) := by
  show V m c main_v6 (((cfg0.win 1).blk t).view.emb (ix2 k q)) = _
  refine congrArg (V m c main_v6) (funext fun a => Fin.ext ?_)
  obtain ⟨-, -, e0, e1, -⟩ := idx_facts t
  match a with
  | ⟨0, _⟩ => show win0_1.index t (0 : Fin 2) * 128 + 1 * k.val = k.val; omega
  | ⟨1, _⟩ => show win0_1.index t (1 : Fin 2) * 8192 + 1 * q.val = q.val; omega

theorem iblk2_at (c : Dev nD) (t : Fin cfg0.N) (p : Fin 128) :
    iblk m c 2 t (ix2 p (0 : Fin 1)) = V m c main_v7 (ix2 (rowOf (pt t) p) (0 : Fin 1)) := by
  show V m c main_v7 (((cfg0.win 2).blk t).view.emb (ix2 p (0 : Fin 1))) = _
  refine congrArg (V m c main_v7) (funext fun a => Fin.ext ?_)
  obtain ⟨-, -, -, -, e0, e1, -⟩ := idx_facts t
  match a with
  | ⟨0, _⟩ => show win0_2.index t (0 : Fin 2) * 128 + 1 * p.val = 128 * t.val + p.val; omega
  | ⟨1, _⟩ => show win0_2.index t (1 : Fin 2) * 1 + 1 * 0 = 0; omega

theorem iblk3_at (c : Dev nD) (t : Fin cfg0.N) (q : Fin 8192) :
    iblk m c 3 t (ix2 (0 : Fin 1) q) = V m c main_v8 (ix2 (0 : Fin 1) q) := by
  show V m c main_v8 (((cfg0.win 3).blk t).view.emb (ix2 (0 : Fin 1) q)) = _
  refine congrArg (V m c main_v8) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 8192 + 1 * q.val = q.val; omega

/-! ## What point t writes back -/

/-- The arrays the region finds, as the specification's arguments: the normalised embeddings, their transpose, the labels. -/
abbrev EV (c : Dev nD) : Emb := V m c main_v5
abbrev ETV (c : Dev nD) : EmbT := V m c main_v6
/-- The labels, read off the label column the region finds (the host's reshape of the label argument). -/
def labV (c : Dev nD) : Lab := fun i => V m c main_v7 (ix2 (i 0 : Fin 8192) (0 : Fin 1))

/-- The label row the region finds is the label column's entries again: both are reshapes of the one label argument. -/
def RowIsCol (c : Dev nD) : Prop := ∀ q : Fin 8192, V m c main_v8 (ix2 (0 : Fin 1) q) = V m c main_v7 (ix2 q (0 : Fin 1))

/-- WHAT POINT t WRITES BACK is block t of `outArr`. -/
theorem flushed_eq (c : Dev nD) (hrc : RowIsCol m c) (t : Fin cfg0.N) :
    (dats m 0 c).flushed 4 t = ((cfg0.win 4).blk t).view.read (Elt Ideal) (outArr (EV m c) (ETV m c) (labV m c)) := by
  show (cfg0.win 4).cut (grid0.coords t) ((dats m 0 c).after 4 t) = _
  rw [after0_4]
  unfold out0_4
  rw [View.canon_unit_zero hz]
  simp only [View.ld_unit_zero (S := S128x128) hz, View.ld_unit_zero (S := S128x8192) hz, View.ld_unit_zero (S := S128x1) hz,
    View.ld_unit_zero (S := S1x8192) hz]
  obtain ⟨-, -, -, -, -, -, -, -, e0, e1, ei⟩ := idx_facts t
  funext j
  obtain ⟨p, z, rfl⟩ : ∃ (p : Fin 128) (z : Fin 2), j = ix2 p z := ⟨j 0, j 1, eq_ix2 j⟩
  have hemb : ∀ z : Fin 2, ((cfg0.win 4).blk t).view.emb (ix2 p z) = ix2 (rowOf (pt t) p) z := fun z =>
    funext fun a => Fin.ext (by
      match a with
      | ⟨0, _⟩ => show win0_4.index t (0 : Fin 2) * 128 + 1 * p.val = 128 * t.val + p.val; omega
      | ⟨1, _⟩ => show win0_4.index t (1 : Fin 2) * 2 + 1 * z.val = z.val; omega)
  have h2 : ∀ p : Fin 128, iblk m c 2 t (ix2 p (0 : Fin 1)) = labV m c (ix1 (rowOf (pt t) p)) := fun p => iblk2_at m c t p
  have h3 : ∀ q : Fin 8192, iblk m c 3 t (ix2 (0 : Fin 1) q) = labV m c (ix1 q) := fun q => (iblk3_at m c t q).trans (hrc q)
  show k0_pay1 (F := Ideal) (k0_pay5 (iblk m c 2 t) (iblk m c 3 t)) (k0_pay6 (grid0.coords t) (iblk m c 0 t) (iblk m c 1 t) (iblk m c 2 t) (iblk m c 3 t))
      (k0_pay7 (iblk m c 0 t) (iblk m c 1 t) (iblk m c 2 t) (iblk m c 3 t)) (k0_pay8 (grid0.coords t) (iblk m c 2 t) (iblk m c 3 t)) (ix2 p z)
    = outArr (EV m c) (ETV m c) (labV m c) (((cfg0.win 4).blk t).view.emb (ix2 p z))
  rw [hemb z]
  match z with
  | ⟨0, _⟩ =>
    refine (stored_col0 (grid0.coords t) (iblk m c 0 t) (iblk m c 1 t) (iblk m c 2 t) (iblk m c 3 t) (pt t) (EV m c) (ETV m c) (labV m c)
      ei (iblk0_at m c t) (iblk1_at m c t) h2 h3 p).trans ?_
    exact (outArr_col0 _ _ _ _).symm
  | ⟨1, _⟩ =>
    refine (stored_col1 (grid0.coords t) (iblk m c 0 t) (iblk m c 1 t) (iblk m c 2 t) (iblk m c 3 t) (pt t) (EV m c) (ETV m c) (labV m c)
      ei (iblk0_at m c t) (iblk1_at m c t) h2 h3 p).trans ?_
    exact (outArr_col1 _ _ _ _).symm

/-! ## The blocks tile the output -/

/-- An index of the output is in point t's block iff each coordinate is in the block's range on its axis. -/
theorem mem_blk (t : Fin cfg0.N) (i : S8192x2.Idx) :
    i ∈ ((cfg0.win 4).blk t).view.set ↔ ∀ a : Fin 2, win0_4.index t a * S128x2.size a ≤ (i a).val ∧ (i a).val < win0_4.index t a * S128x2.size a + S128x2.size a := by
  show i ∈ ((View.whole main_v9).slice (win0_4.rect t)).set ↔ _
  rw [View.set_slice_whole, Rect.mem_set_unit]
  exact Iff.rfl

/-- Row r of the output lies in the block of point r / 128. -/
theorem cover (i : S8192x2.Idx) : ∃ t : Fin cfg0.N, (cfg0.win 4).flush t = true ∧ i ∈ ((cfg0.win 4).blk t).view.set := by
  have hi0 : (i 0).val < 8192 := idx2_lt0 i
  have hi1 : (i 1).val < 2 := idx2_lt1 i
  have hN : cfg0.N = 64 := N_0
  refine ⟨⟨(i 0).val / 128, by omega⟩, flush0_4 _, ?_⟩
  rw [mem_blk]
  obtain ⟨-, -, -, -, -, -, -, -, e0, e1, -⟩ := idx_facts ⟨(i 0).val / 128, by omega⟩
  intro a
  match a with
  | ⟨0, _⟩ =>
    show win0_4.index _ (0 : Fin 2) * 128 ≤ (i 0).val ∧ (i 0).val < win0_4.index _ (0 : Fin 2) * 128 + 128
    rw [e0]
    show (i 0).val / 128 * 128 ≤ (i 0).val ∧ (i 0).val < (i 0).val / 128 * 128 + 128
    omega
  | ⟨1, _⟩ =>
    show win0_4.index _ (1 : Fin 2) * 2 ≤ (i 1).val ∧ (i 1).val < win0_4.index _ (1 : Fin 2) * 2 + 2
    rw [e1]
    omega

/-- THE OUTPUT ARRAY after the run. -/
theorem final (c : Dev nD) (hrc : RowIsCol m c) :
    (dats m 0 c).arrAt 4 cfg0.N = outArr (EV m c) (ETV m c) (labV m c) :=
  (dats m 0 c).arrAt_eq_of_cover 4 _ (fun t _ => flushed_eq m c hrc t) cover

end Cert.MsLoss.Blocks

end
-- ==== Proof.MsRun.lean ====
/-
  The kernel's program, run: its result as one term of the arguments.

  After the call the host lines cut the two columns out of the 8192 × 2 output, sum each over the 8192 rows, and divide the
  summed losses by the number of valid rows clamped below at 1: `meanLoss`. With the output array known (MsBlocks.lean) and
  the call's operands known (MsHost.lean) the program's result is `meanLoss` of the specification's row losses and row
  flags of the reference's normalised embeddings, their transpose and the label argument.
-/
import proofs.«154084_j31671088840965_1_alg».proof.Proof.KernelIdealFrameP
import proofs.«154084_j31671088840965_1_alg».proof.Proof.MsBlocks
import proofs.«154084_j31671088840965_1_alg».proof.Proof.MsHost
import Idealize.ShloMosaic.Lib.ValueLayout
import Idealize.ShloMosaic.Lib.StableHlo.Run

noncomputable section

namespace Cert.MsLoss.Run

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Cert.MsLoss.Blocks

/-- The sum of the row losses over the number of valid rows, the divisor clamped below at 1: the last host lines of both programs. -/
def meanLoss (a b : S8192.Idx → EReal) : S_.Idx → EReal :=
  Host.divf (F := Ideal) (Host.reduceAdd (F := Ideal) a (constant (F := Ideal) S_ .f32 0x00000000#32) reducesTo_S8192_S_d0 h_S_)
    (maximumf (F := Ideal) (Host.reduceAdd (F := Ideal) b (constant (F := Ideal) S_ .f32 0x00000000#32) reducesTo_S8192_S_d0 h_S_)
      (constant (F := Ideal) S_ .f32 0x3F800000#32))

/-- Column z of the output, cut out and flattened, at row r: the output at (r, z). -/
theorem col_at (X : S8192x2.Idx → EReal) (r : Fin 8192) :
    shapeCast S8192 (extractStridedSlice S8192x1 ![0, 0] X slices_S8192x2_S8192x1_0_0) shapeCasts_S8192x1_S8192 (ix1 r) = X (ix2 r (0 : Fin 2))
    ∧ shapeCast S8192 (extractStridedSlice S8192x1 ![0, 1] X slices_S8192x2_S8192x1_0_1) shapeCasts_S8192x1_S8192 (ix1 r) = X (ix2 r (1 : Fin 2)) := by
  have hk : (S8192x1.rowMajor (ix2 r (0 : Fin 1))).val = (S8192.rowMajor (ix1 r)).val := by
    rw [Shape.rowMajor_val_two, Shape.rowMajor_val_one]
    show r.val * 1 + 0 = r.val
    omega
  constructor
  · refine (shapeCast_apply _ shapeCasts_S8192x1_S8192 (ix1 r) (ix2 r (0 : Fin 1)) hk).trans ?_
    exact slice2_axis1_apply 0 X slices_S8192x2_S8192x1_0_0 r (0 : Fin 1) (0 : Fin 2) rfl
  · refine (shapeCast_apply _ shapeCasts_S8192x1_S8192 (ix1 r) (ix2 r (0 : Fin 1)) hk).trans ?_
    exact slice2_axis1_apply 1 X slices_S8192x2_S8192x1_0_1 r (0 : Fin 1) (1 : Fin 2) rfl

variable (m : (ℓ : Loc nD τ sig) → Buf (Elt Ideal) ℓ) (ρ : Dev nD → PrngReg)

/-- The label row is the label column again. -/
theorem rowIsCol (c : Dev nD) : RowIsCol m c := fun q => (Host.V_v8 m c q).trans (Host.V_v7 m c q).symm

/-- The labels the region finds are the label argument. -/
theorem labV_eq (c : Dev nD) : labV m c = m ((c : Thread nD τ).loc main_arg1) := by
  funext i
  obtain ⟨r, rfl⟩ : ∃ r : Fin 8192, i = ix1 r := ⟨i 0, eq_ix1 i⟩
  exact Host.V_v7 m c r

/-- The two columns of the output array, flattened: the row losses and the row flags. -/
def rowLosses (E : Emb) (ET : EmbT) (lab : Lab) : S8192.Idx → EReal := fun i => perRow E ET lab (i 0)
def rowFlags (lab : Lab) : S8192.Idx → EReal := fun i => validF lab (i 0)

/-- THE PROGRAM'S RESULT after the host lines that follow the call. -/
theorem result_eq (c : Dev nD) :
    Pipeline.afterTail₀ cfgs (dats m) 0 (V0 m) [hostOps1] c main_v17
      = meanLoss (rowLosses (EV m c) (ETV m c) (labV m c)) (rowFlags (labV m c)) := by
  unfold Pipeline.afterTail₀
  show StableHlo.after hostOps1 _ (Proc.devRef .tc main_v17) = _
  after_results
  have hA : Pipeline.withArrays (cfgs 0).spec c (V0 m c) (fun w => (dats m 0 c).arrAt w (cfgs 0).N) (Proc.devRef .tc main_v9)
      = outArr (EV m c) (ETV m c) (labV m c) :=
    (Pipeline.withArrays_arr spec0 launch0.win.arr_inj c _ _ 4).trans (final m c (rowIsCol m c))
  rw [hA]
  have h0 : shapeCast S8192 (extractStridedSlice S8192x1 ![0, 0] (outArr (EV m c) (ETV m c) (labV m c)) slices_S8192x2_S8192x1_0_0) shapeCasts_S8192x1_S8192
      = rowLosses (EV m c) (ETV m c) (labV m c) := funext fun i => by
    obtain ⟨r, rfl⟩ : ∃ r : Fin 8192, i = ix1 r := ⟨i 0, eq_ix1 i⟩
    exact ((col_at _ r).1).trans (outArr_col0 _ _ _ r)
  have h1 : shapeCast S8192 (extractStridedSlice S8192x1 ![0, 1] (outArr (EV m c) (ETV m c) (labV m c)) slices_S8192x2_S8192x1_0_1) shapeCasts_S8192x1_S8192
      = rowFlags (labV m c) := funext fun i => by
    obtain ⟨r, rfl⟩ : ∃ r : Fin 8192, i = ix1 r := ⟨i 0, eq_ix1 i⟩
    exact ((col_at _ r).2).trans (outArr_col1 _ _ _ r)
  unfold meanLoss
  rw [← h0, ← h1]
  rfl

/-- THE RUN: every weakly fair execution of the kernel's program terminates with its result at `meanLoss` of the row losses
    and row flags, the arguments unchanged. -/
theorem run : θ_run defs (onTc (τ := τ) (main (F := Ideal))) ⟨m, fun _ => 0, ρ⟩ fun r => ∀ c : Dev nD,
      r.2.mem ((c : Thread nD τ).loc main_v17) = meanLoss (rowLosses (EV m c) (ETV m c) (labV m c)) (rowFlags (labV m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.MsLoss.Run

end
-- ==== Proof.lean ====
/-
  The certificate of the multi-similarity loss kernel against its jnp reference, on the extended reals.

  Both programs normalise the 8192 embeddings (each row divided by its norm clamped below at 1e-12; the same host lines in
  both), form every pairwise similarity, and per row r sum exp (−2 (s − ½)) over the columns with r's label other than r itself
  and exp (50 (s − ½)) over the columns with another label; a row with at least one column of each kind contributes
  log1p (first sum) / 2 + log1p (second sum) / 50, and the result is the sum of the contributions over the number of
  contributing rows clamped below at 1.
  The kernel computes the similarities one slab of 128 rows at a time (a grid of 64 points, the transposed embeddings resident),
  SELECTS each exponential or zero by its mask, finds a row's own column by comparing 128·(grid coordinate) + (local row) with the
  column number in 32-bit words, and writes per row the pair (contribution, flag), which the host lines after the call sum and
  divide. The reference computes the whole 8192 × 8192 matrix, MULTIPLIES each exponential by its mask converted to 0 or 1, and
  takes the diagonal from two iotas. On the extended reals 0 · x = 0 and 1 · x = x for every x, so selection and multiplication
  agree with no finiteness hypothesis; the float literals are the same binary words on both sides; a change of float format is
  the identity; the sums have the same terms in the same arrangement (a row's 8192 columns; then the 8192 rows). So the two
  results are the same term: `Cert.MsLoss.Run.meanLoss` of the specification's row contributions and row flags (MsSpec.lean).
  The pieces: MsRef.lean (the reference, row by row, is the specification), MsBody.lean (the kernel body at a grid point is the
  specification on its 128 rows), MsBlocks.lean (the 64 written blocks are the whole output array), MsHost.lean (what the call's
  operands hold), MsRun.lean (the kernel's program run, with the host lines after the call). The idealization rewrote nothing,
  so `preserves` is `True`; the frames are the programs' runs with the results dropped.
-/
import proofs.«154084_j31671088840965_1_alg».proof.Defs
import proofs.«154084_j31671088840965_1_alg».proof.Proof.Gen.Kernel
import proofs.«154084_j31671088840965_1_alg».proof.Proof.Gen.Kernel.Skeleton
import proofs.«154084_j31671088840965_1_alg».proof.Proof.Gen.Kernel.Launch
import proofs.«154084_j31671088840965_1_alg».proof.Proof.Gen.Kernel.Points
import proofs.«154084_j31671088840965_1_alg».proof.Proof.KernelFrameP
import proofs.«154084_j31671088840965_1_alg».proof.Proof.Gen.KernelIdeal
import proofs.«154084_j31671088840965_1_alg».proof.Proof.Gen.KernelIdeal.Skeleton
import proofs.«154084_j31671088840965_1_alg».proof.Proof.Gen.KernelIdeal.Launch
import proofs.«154084_j31671088840965_1_alg».proof.Proof.Gen.KernelIdeal.Points
import proofs.«154084_j31671088840965_1_alg».proof.Proof.KernelIdealFrameP
import proofs.«154084_j31671088840965_1_alg».proof.Proof.Gen.ReferenceIdeal
import proofs.«154084_j31671088840965_1_alg».proof.Proof.ReferenceRunP
import proofs.«154084_j31671088840965_1_alg».proof.Proof.ReferenceReadP
import proofs.«154084_j31671088840965_1_alg».proof.Proof.Gen.Pre_finite_inputs
import proofs.«154084_j31671088840965_1_alg».proof.Proof.MsSpec
import proofs.«154084_j31671088840965_1_alg».proof.Proof.MsRef
import proofs.«154084_j31671088840965_1_alg».proof.Proof.MsHost
import proofs.«154084_j31671088840965_1_alg».proof.Proof.MsRun
import Idealize.ShloMosaic.Adequacy
import Idealize.ShloMosaic.Init

noncomputable section

open Idealize.ShloMosaic Idealize.ShloMosaic.TcCoe Idealize.ShloMosaic.ValueIdx Idealize.SL.Sem

/-! ## The reference's result is the same term -/

namespace Cert.MsLoss.Join

open Cert.ReferenceIdeal.ReadP Cert.MsLoss.Run

/-- The reference's last stage is `meanLoss` of its row losses and row flags, which are the specification's. -/
theorem ref_result (x0 : (⟨Cert.ReferenceIdeal.S8192x128, .f32⟩ : BufTy).Contents (Elt Ideal))
    (x1 : (⟨Cert.ReferenceIdeal.S8192, .i32⟩ : BufTy).Contents (Elt Ideal)) :
    val_main_v55 (F := Ideal) x0 x1
      = meanLoss (rowLosses (val_main_v4 (F := Ideal) x0) (val_main_v5 (F := Ideal) x0) x1) (rowFlags x1) := by
  have h50 : val_main_v50 (F := Ideal) x0 x1 = rowLosses (val_main_v4 (F := Ideal) x0) (val_main_v5 (F := Ideal) x0) x1 :=
    funext fun i => by
      obtain ⟨r, rfl⟩ : ∃ r : Fin 8192, i = ix1 r := ⟨i 0, eq_ix1 i⟩
      exact Cert.MsLoss.Ref.v50_at x0 x1 r
  have h51 : val_main_v51 (F := Ideal) x1 = rowFlags x1 :=
    funext fun i => by
      obtain ⟨r, rfl⟩ : ∃ r : Fin 8192, i = ix1 r := ⟨i 0, eq_ix1 i⟩
      exact Cert.MsLoss.Ref.v51_at x1 r
  unfold val_main_v55 val_main_v53 val_main_v54 val_main_v52
  rw [h50, h51]
  rfl

end Cert.MsLoss.Join

/-! ## The claims -/

namespace Cert.Proof

open Cert.MsLoss.Run Cert.MsLoss.Blocks

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the two arguments, both idealized programs end at `meanLoss` of the same row losses and row
    flags: the kernel's by its run (the call's operands read back to the arguments), the reference's by its stages. -/
theorem algebraic : Cert.algebraic_KernelIdeal_ReferenceIdeal := by
  intro m ρ m' ρ' _ hagree
  refine ⟨fun c => meanLoss (rowLosses (EV m c) (ETV m c) (labV m c)) (rowFlags (labV m c)), Cert.MsLoss.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v55_eq, (hagree c).1, (hagree c).2, Cert.MsLoss.Join.ref_result]
  show _ = meanLoss (rowLosses (Cert.KernelIdeal.GenP.V m c Cert.KernelIdeal.main_v5) (Cert.KernelIdeal.GenP.V m c Cert.KernelIdeal.main_v6) (labV m c)) (rowFlags (labV m c))
  rw [Cert.MsLoss.Host.V_v5 m c, Cert.MsLoss.Host.V_v6 m c, labV_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
